-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S4x256x128 : Shape := ⟨3, ![4, 256, 128]⟩
abbrev S4x128 : Shape := ⟨2, ![4, 128]⟩
abbrev S100000 : Shape := ⟨1, ![100000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S4x256x128 : S_.BroadcastsInDim S4x256x128 (![] : Fin 0 → Fin S4x256x128.rank)
  reducesTo_S4x256x128_S_d0_1_2 : S4x256x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S100000x256 .f32) (main_arg1 : FVec F S4x256x128 .f32) (main_arg2 : FVec F S4x128 .f32) (main_arg3 : IVec S100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S4x256x128 .f32 := Host.absf main_arg1
  let main_cst_0 : FVec F S_ .f32 := constant S_ .f32 0x7F800000#32
  let main_v5 : FVec F S4x256x128 .f32 := broadcastInDim S4x256x128 ![] bcast_S_S4x256x128 main_cst_0
  let main_v6 : IVec S4x256x128 1 := cmpf .olt main_v4 main_v5
  let main_c_1 : IVec S_ 1 := constantI S_ 1 1#1
  let main_v7 : IVec S_ 1 := (fun x v => Host.reduce IntOp.andi x v reducesTo_S4x256x128_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  main_v13
-- ==== Kernel.lean ====
abbrev S100000x256 : Shape := ⟨2, ![100000, 256]⟩
abbrev S4x256x128 : Shape := ⟨3, ![4, 256, 128]⟩
abbrev S4x128 : Shape := ⟨2, ![4, 128]⟩
abbrev S100000 : Shape := ⟨1, ![100000]⟩
abbrev S256x4x128 : Shape := ⟨3, ![256, 4, 128]⟩
abbrev S256x512 : Shape := ⟨2, ![256, 512]⟩
abbrev S1x512 : Shape := ⟨2, ![1, 512]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S5000x512 : Shape := ⟨2, ![5000, 512]⟩

abbrev nBuf : Space → Nat
  | .hbm => 9
  | .vmem => 8
  | .smem => 0
  | _ => 0

abbrev bufTy : (tb : Table) → Fin (tcTables nBuf tb) → BufTy
  | .hbm, ⟨0, _⟩ => ⟨S100000x256, .f32⟩
  | .hbm, ⟨1, _⟩ => ⟨S4x256x128, .f32⟩
  | .hbm, ⟨2, _⟩ => ⟨S4x128, .f32⟩
  | .hbm, ⟨3, _⟩ => ⟨S100000, .i32⟩
  | .hbm, ⟨4, _⟩ => ⟨S256x4x128, .f32⟩
  | .hbm, ⟨5, _⟩ => ⟨S256x512, .f32⟩
  | .hbm, ⟨6, _⟩ => ⟨S1x512, .f32⟩
  | .hbm, ⟨7, _⟩ => ⟨S100000x1, .i32⟩
  | .hbm, ⟨8, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x512, .f32⟩
  | .local _ .vmem, ⟨3, _⟩ => ⟨S1x512, .f32⟩
  | .local _ .vmem, ⟨4, _⟩ => ⟨S5000x1, .i32⟩
  | .local _ .vmem, ⟨5, _⟩ => ⟨S5000x1, .i32⟩
  | .local _ .vmem, ⟨6, _⟩ => ⟨S5000x128, .f32⟩
  | .local _ .vmem, ⟨7, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S4x256x128_S256x4x128_1_0_2 : S4x256x128.Transposes [1, 0, 2] S256x4x128
  shapeCasts_S256x4x128_S256x512 : S256x4x128.ShapeCasts S256x512
  shapeCasts_S4x128_S1x512 : S4x128.ShapeCasts S1x512
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  natLt_1_32 : 1 < 32
  slices_S5000x512_o0_0_S5000x128 : S5000x512.Slices ![0, 0] S5000x128
  broadcasts_S5000x1_S5000x128 : S5000x1.Broadcasts S5000x128
  slices_S5000x512_o0_128_S5000x128 : S5000x512.Slices ![0, 128] S5000x128
  slices_S5000x512_o0_256_S5000x128 : S5000x512.Slices ![0, 256] S5000x128
  slices_S5000x512_o0_384_S5000x128 : S5000x512.Slices ![0, 384] S5000x128
  inb_S5000x128_S5000x128_0_0 : ∀ a, (![0, 0] : Fin 2 → Nat) a + S5000x128.size a ≤ S5000x128.size a
  h_S5000x128 : 0 < S5000x128.numel
  dot_S5000x256_S256x512_S5000x512_1_0_0_1_n_n_wf : DotDims.WF S5000x256 S256x512 S5000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .i32 = 32 ∨ (Rect.block (s := S100000x1) S5000x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def dot_S5000x256_S256x512_S5000x512_1_0_0_1_n_n : DotDims S5000x256 S256x512 S5000x512 where
  lhsContracting := [1]
  rhsContracting := [0]
  lhsNonContracting := [0]
  rhsNonContracting := [1]
  lhsBatch := []
  rhsBatch := []
  wf := dot_S5000x256_S256x512_S5000x512_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x256 : Shape := ⟨2, ![100000, 256]⟩
abbrev S4x256x128 : Shape := ⟨3, ![4, 256, 128]⟩
abbrev S4x128 : Shape := ⟨2, ![4, 128]⟩
abbrev S100000 : Shape := ⟨1, ![100000]⟩
abbrev S_ : Shape := ⟨0, ![]⟩
abbrev S100000x128 : Shape := ⟨2, ![100000, 128]⟩
abbrev S100000x1 : Shape := ⟨2, ![100000, 1]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩

abbrev nBuf : Space → Nat
  | .hbm => 98
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S4x256x128, .f32⟩
  | .hbm, ⟨2, _⟩ => ⟨S4x128, .f32⟩
  | .hbm, ⟨3, _⟩ => ⟨S100000, .i32⟩
  | .hbm, ⟨4, _⟩ => ⟨S_, .f32⟩
  | .hbm, ⟨5, _⟩ => ⟨S100000x128, .f32⟩
  | .hbm, ⟨6, _⟩ => ⟨S_, .i32⟩
  | .hbm, ⟨7, _⟩ => ⟨S100000, .i32⟩
  | .hbm, ⟨8, _⟩ => ⟨S100000, .i1⟩
  | .hbm, ⟨9, _⟩ => ⟨S100000x1, .i1⟩
  | .hbm, ⟨10, _⟩ => ⟨S_, .f32⟩
  | .hbm, ⟨11, _⟩ => ⟨S_, .f32⟩
  | .hbm, ⟨12, _⟩ => ⟨S100000x256, .i1⟩
  | .hbm, ⟨13, _⟩ => ⟨S100000x256, .f32⟩
  | .hbm, ⟨14, _⟩ => ⟨S100000x256, .f32⟩
  | .hbm, ⟨15, _⟩ => ⟨S1x256x128, .f32⟩
  | .hbm, ⟨16, _⟩ => ⟨S256x128, .f32⟩
  | .hbm, ⟨17, _⟩ => ⟨S100000x128, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S_, .f32⟩
  | .hbm, ⟨25, _⟩ => ⟨S100000x128, .i1⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S100000, .i32⟩
  | .hbm, ⟨31, _⟩ => ⟨S100000, .i1⟩
  | .hbm, ⟨32, _⟩ => ⟨S100000x1, .i1⟩
  | .hbm, ⟨33, _⟩ => ⟨S_, .f32⟩
  | .hbm, ⟨34, _⟩ => ⟨S_, .f32⟩
  | .hbm, ⟨35, _⟩ => ⟨S100000x256, .i1⟩
  | .hbm, ⟨36, _⟩ => ⟨S100000x256, .f32⟩
  | .hbm, ⟨37, _⟩ => ⟨S100000x256, .f32⟩
  | .hbm, ⟨38, _⟩ => ⟨S1x256x128, .f32⟩
  | .hbm, ⟨39, _⟩ => ⟨S256x128, .f32⟩
  | .hbm, ⟨40, _⟩ => ⟨S100000x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S_, .f32⟩
  | .hbm, ⟨48, _⟩ => ⟨S100000x128, .i1⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S100000, .i32⟩
  | .hbm, ⟨54, _⟩ => ⟨S100000, .i1⟩
  | .hbm, ⟨55, _⟩ => ⟨S100000x1, .i1⟩
  | .hbm, ⟨56, _⟩ => ⟨S_, .f32⟩
  | .hbm, ⟨57, _⟩ => ⟨S_, .f32⟩
  | .hbm, ⟨58, _⟩ => ⟨S100000x256, .i1⟩
  | .hbm, ⟨59, _⟩ => ⟨S100000x256, .f32⟩
  | .hbm, ⟨60, _⟩ => ⟨S100000x256, .f32⟩
  | .hbm, ⟨61, _⟩ => ⟨S1x256x128, .f32⟩
  | .hbm, ⟨62, _⟩ => ⟨S256x128, .f32⟩
  | .hbm, ⟨63, _⟩ => ⟨S100000x128, .f32⟩
  | .hbm, ⟨64, _⟩ => ⟨S1x128, .f32⟩
  | .hbm, ⟨65, _⟩ => ⟨S128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S_, .f32⟩
  | .hbm, ⟨71, _⟩ => ⟨S100000x128, .i1⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S100000, .i32⟩
  | .hbm, ⟨77, _⟩ => ⟨S100000, .i1⟩
  | .hbm, ⟨78, _⟩ => ⟨S100000x1, .i1⟩
  | .hbm, ⟨79, _⟩ => ⟨S_, .f32⟩
  | .hbm, ⟨80, _⟩ => ⟨S_, .f32⟩
  | .hbm, ⟨81, _⟩ => ⟨S100000x256, .i1⟩
  | .hbm, ⟨82, _⟩ => ⟨S100000x256, .f32⟩
  | .hbm, ⟨83, _⟩ => ⟨S100000x256, .f32⟩
  | .hbm, ⟨84, _⟩ => ⟨S1x256x128, .f32⟩
  | .hbm, ⟨85, _⟩ => ⟨S256x128, .f32⟩
  | .hbm, ⟨86, _⟩ => ⟨S100000x128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S_, .f32⟩
  | .hbm, ⟨94, _⟩ => ⟨S100000x128, .i1⟩
  | .hbm, ⟨95, _⟩ => ⟨S100000x128, .f32⟩
  | .hbm, ⟨96, _⟩ => ⟨S100000x128, .f32⟩
  | .hbm, ⟨97, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_call5_v0 : Ref sig .tc := ⟨.hbm, 70, rfl⟩
abbrev main_call5_v1 : Ref sig .tc := ⟨.hbm, 71, rfl⟩
abbrev main_call5_v2 : Ref sig .tc := ⟨.hbm, 72, rfl⟩
abbrev main_v41 : Ref sig .tc := ⟨.hbm, 73, rfl⟩
abbrev main_v42 : Ref sig .tc := ⟨.hbm, 74, rfl⟩
abbrev main_c_8 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_9 : Ref sig .tc := ⟨.hbm, 79, rfl⟩
abbrev main_call6_v0 : Ref sig .tc := ⟨.hbm, 80, rfl⟩
abbrev main_call6_v1 : Ref sig .tc := ⟨.hbm, 81, rfl⟩
abbrev main_call6_v2 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_10 : Ref sig .tc := ⟨.hbm, 92, rfl⟩
abbrev main_call7_v0 : Ref sig .tc := ⟨.hbm, 93, rfl⟩
abbrev main_call7_v1 : Ref sig .tc := ⟨.hbm, 94, rfl⟩
abbrev main_call7_v2 : Ref sig .tc := ⟨.hbm, 95, rfl⟩
abbrev main_v55 : Ref sig .tc := ⟨.hbm, 96, rfl⟩
abbrev main_v56 : Ref sig .tc := ⟨.hbm, 97, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x128_0_1 : S100000x1.BroadcastsInDim S100000x128 (![0, 1] : Fin 2 → Fin S100000x128.rank)
  slices_S4x256x128_S1x256x128_1_0_0 : S4x256x128.Slices ![1, 0, 0] S1x256x128
  slices_S4x128_S1x128_1_0 : S4x128.Slices ![1, 0] S1x128
  slices_S4x256x128_S1x256x128_2_0_0 : S4x256x128.Slices ![2, 0, 0] S1x256x128
  slices_S4x128_S1x128_2_0 : S4x128.Slices ![2, 0] S1x128
  slices_S4x256x128_S1x256x128_3_0_0 : S4x256x128.Slices ![3, 0, 0] S1x256x128
  slices_S4x128_S1x128_3_0 : S4x128.Slices ![3, 0] S1x128
  dot_S100000x256_S256x128_S100000x128_1_0_0_1_n_n_wf : DotDims.WF S100000x256 S256x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.SpeciesLayer.lean ====
/-
  The function both programs compute, and the two scalar laws that read a species mask.

  Atom `n` carries a species word `sp n`. Each of the four species `s` has a linear layer,
  `layer s n j = (∑ k, rho (n, k) · Ws (s, k, j)) + bs (s, j)`, which counts for atom `n` only when `sp n = s`;
  the result adds the four selected layers in order, starting from zero:
  `coeff (n, j) = (((0 + sel 0) + sel 1) + sel 2) + sel 3`, where `sel s = if sp n = s then layer s n j else 0`.
  When `sp n` is none of 0, 1, 2, 3 every term is zero.

  A mask can enter as a NUMBER, the bit widened to a word and converted to 1 or 0, multiplying the layer
  (`maskFactor_mul`), or as a BIT that selects between the layer and zero (`select_eq`). On the extended reals
  `1 · x = x` and `0 · x = 0` for every `x`, the infinities included, so both readings give `sel s` with no
  assumption on the inputs.
-/
import Idealize.ShloMosaic.PureOps.Ideal
import Idealize.ShloMosaic.PureOps.Ideal.Laws
import Idealize.ShloMosaic.Lib.ValueIdx
import Idealize.ShloMosaic.Lib.Affine

noncomputable section

namespace Cert.SpeciesLayer

open Idealize.ShloMosaic Idealize.ShloMosaic.ValueIdx
open scoped BigOperators

/-- The descriptors, one row of 256 per atom. -/
abbrev Rho := (⟨2, ![100000, 256]⟩ : Shape).Idx → EReal
/-- The four species' weight matrices, 256 by 128 each. -/
abbrev Weights := (⟨3, ![4, 256, 128]⟩ : Shape).Idx → EReal
/-- The four species' bias rows. -/
abbrev Biases := (⟨2, ![4, 128]⟩ : Shape).Idx → EReal
/-- The species word of each atom. -/
abbrev Species := (⟨1, ![100000]⟩ : Shape).Idx → BitVec 32

/-- Species `s`'s linear layer at atom `n`, output column `j`: row `n` of `rho` against column `j` of the
    species' matrix, plus the species' bias. -/
def layer (rho : Rho) (Ws : Weights) (bs : Biases) (s : Fin 4) (n : Fin 100000) (j : Fin 128) : EReal :=
  (∑ k : Fin 256, rho (ix2 n k) * Ws (ix3 s k j)) + bs (ix2 s j)

/-- The layer where the atom is of species `s`, zero elsewhere. -/
def sel (rho : Rho) (Ws : Weights) (bs : Biases) (sp : Species) (s : Fin 4) (n : Fin 100000) (j : Fin 128) : EReal :=
  if sp (ix1 n) = BitVec.ofNat 32 s.val then layer rho Ws bs s n j else 0

/-- The result: the four selected layers added in order from zero. -/
def coeff (rho : Rho) (Ws : Weights) (bs : Biases) (sp : Species) : (⟨2, ![100000, 128]⟩ : Shape).Idx → EReal :=
  fun i => 0 + sel rho Ws bs sp 0 (i 0) (i 1) + sel rho Ws bs sp 1 (i 0) (i 1) + sel rho Ws bs sp 2 (i 0) (i 1)
    + sel rho Ws bs sp 3 (i 0) (i 1)

/-- The mask as a number. The comparison's bit, widened to a word and read as a signed integer, is `1` where the words
    are equal and `0` elsewhere; times `t` that is `t`, respectively `0`, for every extended real `t`. -/
theorem maskFactor_mul (x s : BitVec 32) (t : EReal) :
    FloatOps.sitofp (F := Ideal) .f32 ((IntOp.cmpi .eq x s).setWidth 32) * t = if x = s then t else 0 := by
  by_cases h : x = s
  · rw [if_pos h, IntOp.cmpi_eq.mpr h]
    show (((((1#1 : BitVec 1).setWidth 32).toInt : ℤ) : ℝ) : EReal) * t = t
    rw [show ((1#1 : BitVec 1).setWidth 32).toInt = 1 by decide]
    simp
  · rw [if_neg h, eq_zero_of_ne_one (fun e => h (IntOp.cmpi_eq.mp e))]
    show (((((0#1 : BitVec 1).setWidth 32).toInt : ℤ) : ℝ) : EReal) * t = 0
    rw [show ((0#1 : BitVec 1).setWidth 32).toInt = 0 by decide]
    simp

/-- The mask as a bit: a select on the comparison is the `if` on the equality. -/
theorem select_eq {α : Type} (x s : BitVec 32) (a b : α) :
    Scalar.select (IntOp.cmpi .eq x s) a b = if x = s then a else b := by
  by_cases h : x = s
  · rw [if_pos h, IntOp.cmpi_eq.mpr h, select_one]
  · rw [if_neg h, eq_zero_of_ne_one (fun e => h (IntOp.cmpi_eq.mp e)), select_zero]

/-- The mask as a bit, applied twice — to the descriptors inside the layer's sum and to the layer itself: where the
    words are equal both selects pass their first operand and the layer is left; elsewhere the outer select answers
    zero whatever the inner sum is. -/
theorem sel_of_select (x s : BitVec 32) (f g : Fin 256 → EReal) (b : EReal) :
    Scalar.select (IntOp.cmpi .eq x s) ((∑ k : Fin 256, Scalar.select (IntOp.cmpi .eq x s) (f k) 0 * g k) + b) 0
      = if x = s then (∑ k : Fin 256, f k * g k) + b else 0 := by
  rw [select_eq]
  by_cases h : x = s
  · rw [if_pos h, if_pos h]
    simp only [select_eq, if_pos h]
  · rw [if_neg h, if_neg h]

end Cert.SpeciesLayer

end
-- ==== Proof.LibIdxOfCoords.lean ====
/-
  An index is the constructor of its coordinates.

  A multi-index of a literal shape is a function of the axis; two such functions are equal when their coordinates are
  equal as numbers. These lemmas name an index `j` of rank 1, 2 or 3 as `ix1` / `ix2` / `ix3` of given coordinates
  from one equation of values per axis — the form in which a composed layout index (a slice of a reshape of a
  broadcast …) is usually known: each coordinate an arithmetic expression that `rfl` or `omega` identifies.
-/
import Idealize.ShloMosaic.Lib.ValueIdx

namespace Cert.IdxOfCoords

open Idealize.ShloMosaic Idealize.ShloMosaic.ValueIdx

/-- A rank-1 index whose coordinate has the value of `a` is `ix1 a`. -/
theorem ix1_of {n : Nat} (j : (⟨1, ![n]⟩ : Shape).Idx) (a : Fin n) (h : (j 0).val = a.val) : j = ix1 a :=
  funext fun d => match d with | ⟨0, _⟩ => Fin.ext h

/-- A rank-2 index whose coordinates have the values of `a` and `b` is `ix2 a b`. -/
theorem ix2_of {n0 n1 : Nat} (j : (⟨2, ![n0, n1]⟩ : Shape).Idx) (a : Fin n0) (b : Fin n1)
    (h0 : (j 0).val = a.val) (h1 : (j 1).val = b.val) : j = ix2 a b :=
  funext fun d => match d with | ⟨0, _⟩ => Fin.ext h0 | ⟨1, _⟩ => Fin.ext h1

/-- A rank-3 index whose coordinates have the values of `a`, `b` and `c` is `ix3 a b c`. -/
theorem ix3_of {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => match d with | ⟨0, _⟩ => Fin.ext h0 | ⟨1, _⟩ => Fin.ext h1 | ⟨2, _⟩ => Fin.ext h2

end Cert.IdxOfCoords
-- ==== Proof.ReferenceCoeff.lean ====
/-
  The reference's result is `coeff`.

  The reference handles the four species one after the other. For species `s` it compares every atom's species word
  with `s`, zeroes the descriptors of the other atoms, multiplies by the species' slice of the weights, adds the
  species' slice of the biases, zeroes the rows of the other atoms again, and adds the outcome to a running total that
  starts at zero.

  `sel_of_stages` is the argument, once, for any species: a round read at `(n, j)` — the outer select on the atom's
  mask bit, over the sum of products whose left factors are the inner selects, plus the bias — is the selected layer
  `sel s n j`, given that the round's stages read the arguments at `(n, k)`, `(s, k, j)`, `(s, j)` and `n`. `sel0` … `sel3`
  supply those readings for each round: its operations read back one at a time, and the composed layout indices (a
  slice of the weights at species `s` reshaped to a matrix; a slice of the biases reshaped to a row and broadcast down
  the atoms; the mask broadcast along a row) identified coordinate by coordinate. `result_eq` adds the four rounds.
-/
import proofs.«173917_j74921409511532_2_alg».proof.Proof.Gen.ReferenceIdeal.Read
import proofs.«173917_j74921409511532_2_alg».proof.Proof.SpeciesLayer
import proofs.«173917_j74921409511532_2_alg».proof.Proof.LibIdxOfCoords

noncomputable section

namespace Cert.ReferenceIdeal.RefValue

open Cert.ReferenceIdeal Cert.ReferenceIdeal.Read Cert.SpeciesLayer Cert.IdxOfCoords
open Idealize.ShloMosaic Idealize.ShloMosaic.ValueIdx
open scoped BigOperators

variable (x0 : (⟨S100000x256, .f32⟩ : BufTy).Contents (Elt Ideal)) (x1 : (⟨S4x256x128, .f32⟩ : BufTy).Contents (Elt Ideal))
  (x2 : (⟨S4x128, .f32⟩ : BufTy).Contents (Elt Ideal)) (x3 : (⟨S100000, .i32⟩ : BufTy).Contents (Elt Ideal))

/-- The zero word denotes the extended real zero. -/
theorem zero_word : (FloatOps.ofBits (F := Ideal) .f32 0x00000000#32 : EReal) = 0 := Ideal.ofBits_zero_f32

/-- One species' round at `(n, j)`. The mask bit is the comparison of atom `n`'s species word with `w`, the word of
    species `s`; the left factors `L k` are the descriptors `(n, k)` under that bit, the right factors `R k` the weights
    `(s, k, j)`, `b` the bias `(s, j)`, and `z` the zero the outer select falls back to. Then the round is `sel s n j`:
    the double-select law of the specification. -/
theorem sel_of_stages (s : Fin 4) (n : Fin 100000) (j : Fin 128) (w : BitVec 32) (hw : w = BitVec.ofNat 32 s.val)
    (jm : S100000.Idx) (L R : Fin 256 → EReal) (b z : EReal) (hm : jm = ix1 n) (hz : z = 0)
    (hL : ∀ k, L k = Scalar.select (IntOp.cmpi .eq (x3 (ix1 n)) w) (x0 (ix2 n k)) 0)
    (hR : ∀ k, R k = x1 (ix3 s k j)) (hb : b = x2 (ix2 s j)) :
    Scalar.select (IntOp.cmpi .eq (x3 jm) w) (FloatOps.addf (F := Ideal) (φ := .f32) (∑ k : Fin 256, L k * R k) b) z
      = sel x0 x1 x2 x3 s n j := by
  subst hm hz hb hw
  rw [Finset.sum_congr rfl fun k _ => by rw [hL k, hR k]]
  unfold sel layer
  exact sel_of_select (x3 (ix1 n)) (BitVec.ofNat 32 s.val) (fun k => x0 (ix2 n k)) (fun k => x1 (ix3 s k j)) (x2 (ix2 s j))

/-- The first round (species 0), read at an index. -/
theorem sel0 (i : S100000x128.Idx) :
    val_main_v13 (F := Ideal) x0 x1 x2 x3 i = sel x0 x1 x2 x3 (0 : Fin 4) (i 0) (i 1) := by
  have h1 : (i 1).val < 128 := (i 1).isLt
  rw [val_main_v13_apply, val_main_call1_v1_apply, val_main_v3_apply, val_main_v2_apply, val_main_v1_apply,
    val_main_c_apply, val_main_call1_v2_apply, val_main_call1_v0_apply, val_main_cst_1_apply,
    val_main_v12_apply, val_main_v7_apply, val_main_v11_apply, val_main_v10_apply, val_main_v9_apply,
    val_main_v8_apply]
  refine sel_of_stages x0 x1 x2 x3 0 (i 0) (i 1) 0#32 rfl _ _ _ _ _ (ix1_of _ _ rfl) zero_word (fun k => ?_) (fun k => ?_)
    (congrArg x2 (ix2_of _ _ _ rfl (by show (i 1).val % 128 = (i 1).val; omega)))
  · rw [val_main_v4_apply, val_main_call0_v1_apply, val_main_v3_apply, val_main_v2_apply, val_main_v1_apply,
      val_main_c_apply, val_main_call0_v2_apply, val_main_call0_v0_apply, val_main_cst_0_apply, zero_word,
      ix1_of (idx_main_v3 (idx_main_call0_v1 (lidx_main_v7 i k))) (i 0) rfl, ix2_of (lidx_main_v7 i k) (i 0) k rfl rfl]
  · have hk : k.val < 256 := k.isLt
    rw [val_main_v6_apply, val_main_v5_apply]
    exact congrArg x1 (ix3_of _ (0 : Fin 4) k (i 1) rfl
      (by show (k.val * 128 + (i 1).val) / 128 % 256 = k.val; omega)
      (by show (k.val * 128 + (i 1).val) % 128 = (i 1).val; omega))

/-- The second round (species 1), read at an index. -/
theorem sel1 (i : S100000x128.Idx) :
    val_main_v27 (F := Ideal) x0 x1 x2 x3 i = sel x0 x1 x2 x3 (1 : Fin 4) (i 0) (i 1) := by
  have h1 : (i 1).val < 128 := (i 1).isLt
  rw [val_main_v27_apply, val_main_call3_v1_apply, val_main_v17_apply, val_main_v16_apply, val_main_v15_apply,
    val_main_c_2_apply, val_main_call3_v2_apply, val_main_call3_v0_apply, val_main_cst_4_apply,
    val_main_v26_apply, val_main_v21_apply, val_main_v25_apply, val_main_v24_apply, val_main_v23_apply,
    val_main_v22_apply]
  refine sel_of_stages x0 x1 x2 x3 1 (i 0) (i 1) 1#32 rfl _ _ _ _ _ (ix1_of _ _ rfl) zero_word (fun k => ?_) (fun k => ?_)
    (congrArg x2 (ix2_of _ _ _ rfl (by show (i 1).val % 128 = (i 1).val; omega)))
  · rw [val_main_v18_apply, val_main_call2_v1_apply, val_main_v17_apply, val_main_v16_apply, val_main_v15_apply,
      val_main_c_2_apply, val_main_call2_v2_apply, val_main_call2_v0_apply, val_main_cst_3_apply, zero_word,
      ix1_of (idx_main_v17 (idx_main_call2_v1 (lidx_main_v21 i k))) (i 0) rfl, ix2_of (lidx_main_v21 i k) (i 0) k rfl rfl]
  · have hk : k.val < 256 := k.isLt
    rw [val_main_v20_apply, val_main_v19_apply]
    exact congrArg x1 (ix3_of _ (1 : Fin 4) k (i 1) rfl
      (by show (k.val * 128 + (i 1).val) / 128 % 256 = k.val; omega)
      (by show (k.val * 128 + (i 1).val) % 128 = (i 1).val; omega))

/-- The third round (species 2), read at an index. -/
theorem sel2 (i : S100000x128.Idx) :
    val_main_v41 (F := Ideal) x0 x1 x2 x3 i = sel x0 x1 x2 x3 (2 : Fin 4) (i 0) (i 1) := by
  have h1 : (i 1).val < 128 := (i 1).isLt
  rw [val_main_v41_apply, val_main_call5_v1_apply, val_main_v31_apply, val_main_v30_apply, val_main_v29_apply,
    val_main_c_5_apply, val_main_call5_v2_apply, val_main_call5_v0_apply, val_main_cst_7_apply,
    val_main_v40_apply, val_main_v35_apply, val_main_v39_apply, val_main_v38_apply, val_main_v37_apply,
    val_main_v36_apply]
  refine sel_of_stages x0 x1 x2 x3 2 (i 0) (i 1) 2#32 rfl _ _ _ _ _ (ix1_of _ _ rfl) zero_word (fun k => ?_) (fun k => ?_)
    (congrArg x2 (ix2_of _ _ _ rfl (by show (i 1).val % 128 = (i 1).val; omega)))
  · rw [val_main_v32_apply, val_main_call4_v1_apply, val_main_v31_apply, val_main_v30_apply, val_main_v29_apply,
      val_main_c_5_apply, val_main_call4_v2_apply, val_main_call4_v0_apply, val_main_cst_6_apply, zero_word,
      ix1_of (idx_main_v31 (idx_main_call4_v1 (lidx_main_v35 i k))) (i 0) rfl, ix2_of (lidx_main_v35 i k) (i 0) k rfl rfl]
  · have hk : k.val < 256 := k.isLt
    rw [val_main_v34_apply, val_main_v33_apply]
    exact congrArg x1 (ix3_of _ (2 : Fin 4) k (i 1) rfl
      (by show (k.val * 128 + (i 1).val) / 128 % 256 = k.val; omega)
      (by show (k.val * 128 + (i 1).val) % 128 = (i 1).val; omega))

/-- The fourth round (species 3), read at an index. -/
theorem sel3 (i : S100000x128.Idx) :
    val_main_v55 (F := Ideal) x0 x1 x2 x3 i = sel x0 x1 x2 x3 (3 : Fin 4) (i 0) (i 1) := by
  have h1 : (i 1).val < 128 := (i 1).isLt
  rw [val_main_v55_apply, val_main_call7_v1_apply, val_main_v45_apply, val_main_v44_apply, val_main_v43_apply,
    val_main_c_8_apply, val_main_call7_v2_apply, val_main_call7_v0_apply, val_main_cst_10_apply,
    val_main_v54_apply, val_main_v49_apply, val_main_v53_apply, val_main_v52_apply, val_main_v51_apply,
    val_main_v50_apply]
  refine sel_of_stages x0 x1 x2 x3 3 (i 0) (i 1) 3#32 rfl _ _ _ _ _ (ix1_of _ _ rfl) zero_word (fun k => ?_) (fun k => ?_)
    (congrArg x2 (ix2_of _ _ _ rfl (by show (i 1).val % 128 = (i 1).val; omega)))
  · rw [val_main_v46_apply, val_main_call6_v1_apply, val_main_v45_apply, val_main_v44_apply, val_main_v43_apply,
      val_main_c_8_apply, val_main_call6_v2_apply, val_main_call6_v0_apply, val_main_cst_9_apply, zero_word,
      ix1_of (idx_main_v45 (idx_main_call6_v1 (lidx_main_v49 i k))) (i 0) rfl, ix2_of (lidx_main_v49 i k) (i 0) k rfl rfl]
  · have hk : k.val < 256 := k.isLt
    rw [val_main_v48_apply, val_main_v47_apply]
    exact congrArg x1 (ix3_of _ (3 : Fin 4) k (i 1) rfl
      (by show (k.val * 128 + (i 1).val) / 128 % 256 = k.val; omega)
      (by show (k.val * 128 + (i 1).val) % 128 = (i 1).val; omega))

/-- The reference's result, as a function of the argument arrays, is `coeff`: the running total of the four rounds
    from zero. -/
theorem result_eq : val_main_v56 (F := Ideal) x0 x1 x2 x3 = coeff x0 x1 x2 x3 := by
  funext i
  rw [val_main_v56_apply, val_main_v42_apply, val_main_v28_apply, val_main_v14_apply, val_main_v0_apply, val_main_cst_apply,
    sel0, sel1, sel2, sel3, zero_word]
  rfl

end Cert.ReferenceIdeal.RefValue

end
-- ==== Proof.TileCoeff.lean ====
/-
  One tile of the kernel computes `coeff` on its rows.

  The kernel works on a tile of 5000 atoms at a time. It multiplies the tile's descriptors `x0` (5000 by 256) by ALL
  four species' weight matrices at once, laid side by side as one 256-by-512 matrix `x1` (species `s`'s column `q` is
  fused column `128 s + q`), adds the four bias rows laid side by side (`x2`, 1 by 512), and then, for each species in
  turn, cuts the species' 128 columns out of the 5000-by-512 result and adds them, multiplied by the 0/1 mask of the
  atoms of that species (`x3`, the species words as a column), to a total that starts at zero.

  Read at row `p`, column `q`: the fused product at fused column `c` is a sum over the 256 features
  (`product_apply`), the bias row is broadcast down the rows (`bias_row_apply`), the species' cut reads fused column
  `128 s + q` (`slice_apply`), and the mask column is broadcast along the row and is the comparison's bit as a number
  (`factor_apply`). A masked cut is therefore the selected layer `sel s` of the whole arrays at the tile's row
  (`term_apply`: the mask-as-a-number law of the specification), PROVIDED the tile's blocks hold what the whole arrays
  hold there — stated as the four hypotheses `h0` … `h3` over an arbitrary row map, so that nothing here mentions how
  tiles are cut from the arrays. `tile_coeff` adds the four.
-/
import proofs.«173917_j74921409511532_2_alg».proof.Proof.Gen.KernelIdeal.Skeleton
import proofs.«173917_j74921409511532_2_alg».proof.Proof.SpeciesLayer
import proofs.«173917_j74921409511532_2_alg».proof.Proof.LibIdxOfCoords
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Cert.SpeciesLayer Cert.IdxOfCoords
open Idealize.ShloMosaic Idealize.ShloMosaic.ValueIdx
open scoped BigOperators

/-- Fused column `128 s + q`: species `s`'s column `q` among the 512. -/
abbrev col (s : Fin 4) (q : Fin 128) : Fin 512 := ⟨128 * s.val + q.val, by have := s.isLt; have := q.isLt; omega⟩

/-- The tile's matrix product: rows of the left operand against columns of the right, the 256 features contracted. -/
abbrev D : DotDims S5000x256 S256x512 S5000x512 := dot_S5000x256_S256x512_S5000x512_1_0_0_1_n_n

/-- The left operand is read in the output's row. -/
theorem lhs_row (i : S5000x512.Idx) (κ : D.contr.Idx) : (D.lhsIdx i κ 0).val = (i 0).val := by
  unfold DotDims.lhsIdx
  rw [dif_neg (show ¬(0 : Fin S5000x256.rank) ∈ D.lhsBatch by decide),
    dif_pos (show (0 : Fin S5000x256.rank) ∈ D.lhsNonContracting by decide)]
  rfl

/-- The right operand is read in the output's column. -/
theorem rhs_col (i : S5000x512.Idx) (κ : D.contr.Idx) : (D.rhsIdx i κ 1).val = (i 1).val := by
  unfold DotDims.rhsIdx
  rw [dif_neg (show ¬(1 : Fin S256x512.rank) ∈ D.rhsBatch by decide),
    dif_pos (show (1 : Fin S256x512.rank) ∈ D.rhsNonContracting by decide)]
  rfl

/-- The product into a zero accumulator, at row `p` and fused column `c`: the sum over the features `k` of
    `x0 (p, k) · x1 (k, c)`. -/
theorem product_apply (x0 : FVec Ideal S5000x256 .f32) (x1 : FVec Ideal S256x512 .f32) (p : Fin 5000) (c : Fin 512) :
    matmul D (some .fp32) x0 x1 (constant (F := Ideal) S5000x512 .f32 0x00000000#32) (ix2 p c)
      = ∑ k : Fin 256, x0 (ix2 p k) * x1 (ix2 k c) := by
  show FloatOps.matmul D (some .fp32) x0 x1 (constant (F := Ideal) S5000x512 .f32 0x00000000#32) (ix2 p c) = _
  rw [Ideal.matmul_constant_zero_apply, ← Equiv.sum_comp (contrEquiv1 D 256 rfl rfl).symm]
  refine Finset.sum_congr rfl fun k _ => ?_
  have hk := contrEquiv1_symm_val D 256 rfl rfl k
  rw [ix2_of (D.lhsIdx (ix2 p c) ((contrEquiv1 D 256 rfl rfl).symm k)) p k (lhs_row _ _)
      ((D.lhsIdx_val_of_single rfl _ _).trans hk),
    ix2_of (D.rhsIdx (ix2 p c) ((contrEquiv1 D 256 rfl rfl).symm k)) k c ((D.rhsIdx_val_of_single rfl _ _).trans hk)
      (rhs_col _ _)]

/-- The bias row broadcast down the tile's rows reads the row at the same column. -/
theorem bias_row_apply (x2 : FVec Ideal S1x512 .f32) (p : Fin 5000) (c : Fin 512) :
    broadcastTo S5000x512 x2 broadcasts_S1x512_S5000x512 (ix2 p c) = x2 (ix2 0 c) :=
  broadcastTo_apply x2 broadcasts_S1x512_S5000x512 (ix2 p c) (ix2 0 c) (fun a => match a with
    | ⟨0, _⟩ => by show 0 = if (1 : Nat) = 1 then 0 else p.val; rw [if_pos rfl]
    | ⟨1, _⟩ => by show c.val = if (512 : Nat) = 1 then 0 else c.val; rw [if_neg (by decide)])

/-- A column broadcast along the tile's rows reads the column at the same row. -/
theorem mask_col_apply {α : Type} (v : S5000x1.Idx → α) (p : Fin 5000) (q : Fin 128) :
    broadcastTo S5000x128 v broadcasts_S5000x1_S5000x128 (ix2 p q) = v (ix2 p 0) :=
  broadcastTo_apply v broadcasts_S5000x1_S5000x128 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-- Species `s`'s cut of a 5000-by-512 value — 128 columns from column `128 s` — reads fused column `128 s + q`. -/
theorem slice_apply {α : Type} (v : S5000x512.Idx → α) (off : Fin 2 → Nat) (h : S5000x512.Slices off S5000x128) (s : Fin 4)
    (h0 : off 0 = 0) (h1 : off 1 = 128 * s.val) (p : Fin 5000) (q : Fin 128) :
    extractStridedSlice S5000x128 off v h (ix2 p q) = v (ix2 p (col s q)) :=
  extractStridedSlice_apply off v h (ix2 p q) (ix2 p (col s q)) (fun a => match a with
    | ⟨0, _⟩ => by show p.val = off 0 + p.val; omega
    | ⟨1, _⟩ => by show 128 * s.val + q.val = off 1 + q.val; omega)

/-- The mask of species word `w` as a number, at `(p, q)`: the bit of "atom `p`'s species word is `w`", widened and
    converted. -/
theorem factor_apply (x3 : IVec S5000x1 32) (w : BitVec 32) (p : Fin 5000) (q : Fin 128) :
    broadcastTo S5000x128 (sitofp (F := Ideal) .f32 (extui 32 (cmpi .eq (shapeCast S5000x1 x3 shapeCasts_S5000x1_S5000x1)
        (broadcast S5000x1 w)) natLt_1_32)) broadcasts_S5000x1_S5000x128 (ix2 p q)
      = FloatOps.sitofp (F := Ideal) .f32 ((IntOp.cmpi .eq (x3 (ix2 p 0)) w).setWidth 32) := by
  rw [mask_col_apply, shapeCast_self]
  rfl

/-- The fused layers — product plus the bias rows — at row `p`, fused column `c`. -/
theorem fused_apply (x0 : FVec Ideal S5000x256 .f32) (x1 : FVec Ideal S256x512 .f32) (x2 : FVec Ideal S1x512 .f32)
    (p : Fin 5000) (c : Fin 512) :
    addf (matmul D (some .fp32) x0 (shapeCast S256x512 x1 shapeCasts_S256x512_S256x512)
        (constant (F := Ideal) S5000x512 .f32 0x00000000#32))
      (broadcastTo S5000x512 (shapeCast S1x512 x2 shapeCasts_S1x512_S1x512) broadcasts_S1x512_S5000x512) (ix2 p c)
      = (∑ k : Fin 256, x0 (ix2 p k) * x1 (ix2 k c)) + x2 (ix2 0 c) := by
  rw [addf_apply, shapeCast_self, shapeCast_self, product_apply, bias_row_apply]

section Tile

variable (x0 : FVec Ideal S5000x256 .f32) (x1 : FVec Ideal S256x512 .f32) (x2 : FVec Ideal S1x512 .f32) (x3 : IVec S5000x1 32)
  (rho : Rho) (Ws : Weights) (bs : Biases) (sp : Species) (row : Fin 5000 → Fin 100000)
  (h0 : ∀ p k, x0 (ix2 p k) = rho (ix2 (row p) k))
  (h1 : ∀ (s : Fin 4) k q, x1 (ix2 k (col s q)) = Ws (ix3 s k q))
  (h2 : ∀ (s : Fin 4) q, x2 (ix2 0 (col s q)) = bs (ix2 s q))
  (h3 : ∀ p, x3 (ix2 p 0) = sp (ix1 (row p)))

include h0 h1 h2 h3 in
/-- Species `s`'s masked cut at `(p, q)` is the selected layer `sel s` of the whole arrays at atom `row p`, column `q`:
    the mask is 1 or 0 as a number, and 1 · x = x, 0 · x = 0 on the extended reals. -/
theorem term_apply (s : Fin 4) (w : BitVec 32) (hw : w = BitVec.ofNat 32 s.val) (off : Fin 2 → Nat)
    (hs : S5000x512.Slices off S5000x128) (hoff0 : off 0 = 0) (hoff1 : off 1 = 128 * s.val) (p : Fin 5000) (q : Fin 128) :
    broadcastTo S5000x128 (sitofp (F := Ideal) .f32 (extui 32 (cmpi .eq (shapeCast S5000x1 x3 shapeCasts_S5000x1_S5000x1)
        (broadcast S5000x1 w)) natLt_1_32)) broadcasts_S5000x1_S5000x128 (ix2 p q)
      * extractStridedSlice S5000x128 off
        (addf (matmul D (some .fp32) x0 (shapeCast S256x512 x1 shapeCasts_S256x512_S256x512)
            (constant (F := Ideal) S5000x512 .f32 0x00000000#32))
          (broadcastTo S5000x512 (shapeCast S1x512 x2 shapeCasts_S1x512_S1x512) broadcasts_S1x512_S5000x512)) hs (ix2 p q)
      = sel rho Ws bs sp s (row p) q := by
  have e : (∑ k : Fin 256, x0 (ix2 p k) * x1 (ix2 k (col s q))) = ∑ k : Fin 256, rho (ix2 (row p) k) * Ws (ix3 s k q) :=
    Finset.sum_congr rfl fun k _ => by rw [h0 p k, h1 s k q]
  rw [factor_apply, slice_apply _ off hs s hoff0 hoff1, fused_apply, maskFactor_mul, h3 p, hw, e, h2 s q]
  rfl

include h0 h1 h2 h3 in
/-- The tile's result at `(p, q)` is `coeff` of the whole arrays at `(row p, q)`: zero plus the four masked cuts, in the
    order the specification adds the selected layers. -/
theorem tile_coeff (p : Fin 5000) (q : Fin 128) :
    k0_pay1 (F := Ideal) x0 x1 x2 x3 (ix2 p q) = coeff rho Ws bs sp (ix2 (row p) q) := by
  unfold k0_pay1
  simp only [addf_apply, mulf_apply, broadcast_apply]
  exact congrArg₂ (· + ·) (congrArg₂ (· + ·) (congrArg₂ (· + ·) (congrArg₂ (· + ·) Ideal.ofBits_zero_f32
      (term_apply x0 x1 x2 x3 rho Ws bs sp row h0 h1 h2 h3 0 0#32 rfl ![0, 0] slices_S5000x512_o0_0_S5000x128 rfl rfl p q))
      (term_apply x0 x1 x2 x3 rho Ws bs sp row h0 h1 h2 h3 1 1#32 rfl ![0, 128] slices_S5000x512_o0_128_S5000x128 rfl rfl p q))
      (term_apply x0 x1 x2 x3 rho Ws bs sp row h0 h1 h2 h3 2 2#32 rfl ![0, 256] slices_S5000x512_o0_256_S5000x128 rfl rfl p q))
      (term_apply x0 x1 x2 x3 rho Ws bs sp row h0 h1 h2 h3 3 3#32 rfl ![0, 384] slices_S5000x512_o0_384_S5000x128 rfl rfl p q)

end Tile

end Cert.KernelIdeal.Tile

end
-- ==== Proof.FusedOperands.lean ====
/-
  The operands the kernel is launched on, read back to the arguments.

  Before the kernel runs, the host lays the arguments out for it: the weights `Ws` (species, feature, column) are
  transposed to (feature, species, column) and flattened to a 256-by-512 matrix, so that fused column `128 s + q` of
  row `k` is `Ws (s, k, q)`; the biases (species, column) are flattened to one row of 512, so that fused column
  `128 s + q` is `bs (s, q)`; and the species words are reshaped from a vector to a column. Each lemma first names the
  array the kernel finds (`V`) as those operations of the argument, then reads it at an index: a reshape keeps the
  row-major position, a transpose permutes the coordinates.
-/
import proofs.«173917_j74921409511532_2_alg».proof.Proof.Gen.KernelIdeal.Frame
import proofs.«173917_j74921409511532_2_alg».proof.Proof.TileCoeff
import Idealize.ShloMosaic.Lib.Pipeline.Value
import Idealize.ShloMosaic.Lib.ValueIdx
import Idealize.ShloMosaic.Lib.StableHlo.Run

noncomputable section

namespace Cert.KernelIdeal.Fused

open Cert.KernelIdeal Cert.KernelIdeal.Gen Cert.KernelIdeal.Tile
open Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-- The fused weight matrix the kernel finds is the weights transposed to (feature, species, column) and flattened. -/
theorem weights_eq : (V m c main_v1 : S256x512.Idx → EReal)
    = shapeCast S256x512 (transpose S256x4x128 [1, 0, 2] (m ((c : Thread nD τ).loc main_arg1))
        transposes_S4x256x128_S256x4x128_1_0_2) shapeCasts_S256x4x128_S256x512 := by
  dsimp only [Gen.V, Gen.hostOps0]
  after_results
  rfl

/-- Row `k`, fused column `128 s + q` of the fused weight matrix is `Ws (s, k, q)`. -/
theorem weights_apply (s : Fin 4) (k : Fin 256) (q : Fin 128) :
    (V m c main_v1 : S256x512.Idx → EReal) (ix2 k (col s q)) = m ((c : Thread nD τ).loc main_arg1) (ix3 s k q) := by
  rw [weights_eq,
    shapeCast_apply _ shapeCasts_S256x4x128_S256x512 (ix2 k (col s q)) (ix3 k s q) (by
      rewrite [Shape.rowMajor_val_three, Shape.rowMajor_val_two]
      show (k.val * 4 + s.val) * 128 + q.val = k.val * 512 + (128 * s.val + q.val)
      omega),
    transpose_apply [1, 0, 2] _ transposes_S4x256x128_S256x4x128_1_0_2 (ix3 k s q) (ix3 s k q)
      (fun b => match b with | ⟨0, _⟩ => rfl | ⟨1, _⟩ => rfl | ⟨2, _⟩ => rfl)]

/-- The fused bias row the kernel finds is the biases flattened. -/
theorem biases_eq : (V m c main_v2 : S1x512.Idx → EReal)
    = shapeCast S1x512 (m ((c : Thread nD τ).loc main_arg2)) shapeCasts_S4x128_S1x512 := by
  dsimp only [Gen.V, Gen.hostOps0]
  after_results
  rfl

/-- Fused column `128 s + q` of the fused bias row is `bs (s, q)`. -/
theorem biases_apply (s : Fin 4) (q : Fin 128) :
    (V m c main_v2 : S1x512.Idx → EReal) (ix2 0 (col s q)) = m ((c : Thread nD τ).loc main_arg2) (ix2 s q) := by
  rw [biases_eq,
    shapeCast_apply _ shapeCasts_S4x128_S1x512 (ix2 0 (col s q)) (ix2 s q) (by
      rewrite [Shape.rowMajor_val_two, Shape.rowMajor_val_two]
      show s.val * 128 + q.val = 0 * 512 + (128 * s.val + q.val)
      omega)]

/-- The species column the kernel finds is the species vector reshaped. -/
theorem species_eq : (V m c main_v3 : S100000x1.Idx → BitVec 32)
    = shapeCast S100000x1 (m ((c : Thread nD τ).loc main_arg3)) shapeCasts_S100000_S100000x1 := by
  dsimp only [Gen.V, Gen.hostOps0]
  after_results
  rfl

/-- Row `n` of the species column is atom `n`'s species word. -/
theorem species_apply (n : Fin 100000) :
    (V m c main_v3 : S100000x1.Idx → BitVec 32) (ix2 n 0) = m ((c : Thread nD τ).loc main_arg3) (ix1 n) := by
  rw [species_eq,
    shapeCast_apply _ shapeCasts_S100000_S100000x1 (ix2 n 0) (ix1 n) (by
      rewrite [Shape.rowMajor_val_one, Shape.rowMajor_val_two]
      show n.val = n.val * 1 + 0
      omega)]

end Cert.KernelIdeal.Fused

end
-- ==== Proof.KernelCoeff.lean ====
/-
  The kernel's result is `coeff`.

  The kernel visits 20 tiles of 5000 atoms. At tile `t` it is handed rows `5000 t … 5000 t + 4999` of the descriptors
  and of the species column, the whole fused weight matrix and bias row (the same at every tile), and writes back rows
  `5000 t … 5000 t + 4999` of the result, all 128 columns. By the tile lemma what it writes back is `coeff` of the whole
  argument arrays on those rows (`flushed_eq`: the tile's blocks hold the arrays' contents at the tile's rows, and the
  fused operands read back to the weights and biases). The 20 row ranges tile the 100000 atoms — atom `n` is in tile
  `n / 5000` (`cover`) — so after the run the whole result array is `coeff` of the arguments (`final`, `run`).
-/
import proofs.«173917_j74921409511532_2_alg».proof.Proof.Gen.KernelIdeal.Value
import proofs.«173917_j74921409511532_2_alg».proof.Proof.TileCoeff
import proofs.«173917_j74921409511532_2_alg».proof.Proof.FusedOperands
import Idealize.ShloMosaic.Lib.Pipeline.Value

noncomputable section

namespace Cert.KernelIdeal.KernelValue

open Cert.KernelIdeal Cert.KernelIdeal.Gen Cert.KernelIdeal.Tile Cert.KernelIdeal.Fused Cert.SpeciesLayer Cert.IdxOfCoords
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-- The block each window is on at tile `t`, decided over the 20 tiles: the descriptors, the species column and the
    result move down one block of rows per tile; the fused weights and biases stay on their one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of tile `t` is atom `5000 t + p`. -/
def row (t : Fin cfg0.N) (p : Fin 5000) : Fin 100000 :=
  ⟨t.val * 5000 + p.val, by
    have hN : grid0.N = 20 := N_0
    have ht : t.val < grid0.N := t.isLt
    have hp : p.val < 5000 := p.isLt
    omega⟩

/-- What tile `t` writes back is block `t` of `coeff` of the argument arrays. -/
theorem flushed_eq (c : Dev nD) (t : Fin cfg0.N) :
    (dats m 0 c).flushed 4 t = ((cfg0.win 4).blk t).view.read (Elt Ideal) (coeff (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold out0_4
  rw [View.canon_unit_zero origin]
  simp only [View.ld_unit_zero (S := S5000x256) origin, View.ld_unit_zero (S := S256x512) origin,
    View.ld_unit_zero (S := S1x512) origin, View.ld_unit_zero (S := S5000x1) origin]
  obtain ⟨e00, e01, e10, e11, e20, e21, e30, e31, e40, e41⟩ := index_facts t
  funext y
  obtain ⟨p, q, rfl⟩ : ∃ (p : Fin 5000) (q : Fin 128), y = ix2 p q := ⟨y 0, y 1, eq_ix2 y⟩
  show k0_pay1 (iblk m c 0 t) (iblk m c 1 t) (iblk m c 2 t) (iblk m c 3 t) (ix2 p q)
    = coeff (m ((c : Thread nD τ).loc main_arg0)) (m ((c : Thread nD τ).loc main_arg1)) (m ((c : Thread nD τ).loc main_arg2)) (m ((c : Thread nD τ).loc main_arg3)) (((cfg0.win 4).blk t).view.emb (ix2 p q))
  rw [ix2_of (((cfg0.win 4).blk t).view.emb (ix2 p q)) (row t p) q
    (by show win0_4.index t (0 : Fin 2) * 5000 + 1 * p.val = t.val * 5000 + p.val; omega)
    (by show win0_4.index t (1 : Fin 2) * 128 + 1 * q.val = q.val; omega)]
  refine tile_coeff (iblk m c 0 t) (iblk m c 1 t) (iblk m c 2 t) (iblk m c 3 t)
    (m ((c : Thread nD τ).loc main_arg0)) (m ((c : Thread nD τ).loc main_arg1)) (m ((c : Thread nD τ).loc main_arg2)) (m ((c : Thread nD τ).loc main_arg3)) (row t) ?_ ?_ ?_ ?_ p q
  · -- the descriptors' block holds rows `5000 t …` of the descriptors
    intro p k
    show V m c main_arg0 (((cfg0.win 0).blk t).view.emb (ix2 p k)) = _
    rw [V_main_arg0, ix2_of (((cfg0.win 0).blk t).view.emb (ix2 p k)) (row t p) k
      (by show win0_0.index t (0 : Fin 2) * 5000 + 1 * p.val = t.val * 5000 + p.val; omega)
      (by show win0_0.index t (1 : Fin 2) * 256 + 1 * k.val = k.val; omega)]
  · -- the fused weights' one block is the whole fused matrix
    intro s k q
    show (V m c main_v1 : S256x512.Idx → EReal) (((cfg0.win 1).blk t).view.emb (ix2 k (col s q))) = _
    rw [ix2_of (((cfg0.win 1).blk t).view.emb (ix2 k (col s q))) k (col s q)
      (by show win0_1.index t (0 : Fin 2) * 256 + 1 * k.val = k.val; omega)
      (by show win0_1.index t (1 : Fin 2) * 512 + 1 * (128 * s.val + q.val) = 128 * s.val + q.val; omega)]
    exact weights_apply m c s k q
  · -- the fused biases' one block is the whole fused row
    intro s q
    show (V m c main_v2 : S1x512.Idx → EReal) (((cfg0.win 2).blk t).view.emb (ix2 0 (col s q))) = _
    rw [ix2_of (((cfg0.win 2).blk t).view.emb (ix2 0 (col s q))) 0 (col s q)
      (by show win0_2.index t (0 : Fin 2) * 1 + 1 * 0 = 0; omega)
      (by show win0_2.index t (1 : Fin 2) * 512 + 1 * (128 * s.val + q.val) = 128 * s.val + q.val; omega)]
    exact biases_apply m c s q
  · -- the species column's block holds rows `5000 t …` of the species column
    intro p
    show (V m c main_v3 : S100000x1.Idx → BitVec 32) (((cfg0.win 3).blk t).view.emb (ix2 p 0)) = _
    rw [ix2_of (((cfg0.win 3).blk t).view.emb (ix2 p 0)) (row t p) 0
      (by show win0_3.index t (0 : Fin 2) * 5000 + 1 * p.val = t.val * 5000 + p.val; omega)
      (by show win0_3.index t (1 : Fin 2) * 1 + 1 * 0 = 0; omega)]
    exact species_apply m c (row t p)

/-- An index of the result array is in tile `t`'s block iff each coordinate is in the block's range on its axis. -/
theorem mem_block (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v4).slice (win0_4.rect t)).set ↔ _
  rw [View.set_slice_whole, Rect.mem_set_unit]
  exact Iff.rfl

/-- Every index of the result array is in the block of a tile that writes back: atom `n` is in tile `n / 5000`. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 20 := N_0
  have hlt : (i 0).val / 5000 < grid0.N := by omega
  obtain ⟨-, -, -, -, -, -, -, -, e40, e41⟩ := index_facts ⟨(i 0).val / 5000, hlt⟩
  have e40' : win0_4.index ⟨(i 0).val / 5000, hlt⟩ (0 : Fin 2) = (i 0).val / 5000 := e40
  refine ⟨⟨(i 0).val / 5000, hlt⟩, flush0_4 _, ?_⟩
  rw [mem_block]
  intro a
  match a with
  | ⟨0, _⟩ =>
    show win0_4.index ⟨(i 0).val / 5000, hlt⟩ (0 : Fin 2) * 5000 ≤ (i 0).val
      ∧ (i 0).val < win0_4.index ⟨(i 0).val / 5000, hlt⟩ (0 : Fin 2) * 5000 + 5000
    omega
  | ⟨1, _⟩ =>
    show win0_4.index ⟨(i 0).val / 5000, hlt⟩ (1 : Fin 2) * 128 ≤ (i 1).val
      ∧ (i 1).val < win0_4.index ⟨(i 0).val / 5000, hlt⟩ (1 : Fin 2) * 128 + 128
    omega

/-- The result array after the run is `coeff` of the argument arrays. -/
theorem final (c : Dev nD) : (dats m 0 c).arrAt 4 cfg0.N = coeff (m ((c : Thread nD τ).loc main_arg0)) (m ((c : Thread nD τ).loc main_arg1)) (m ((c : Thread nD τ).loc main_arg2)) (m ((c : Thread nD τ).loc main_arg3)) :=
  (dats m 0 c).arrAt_eq_of_cover 4 (coeff (m ((c : Thread nD τ).loc main_arg0)) (m ((c : Thread nD τ).loc main_arg1)) (m ((c : Thread nD τ).loc main_arg2)) (m ((c : Thread nD τ).loc main_arg3)))
    (fun t _ => flushed_eq m c t) (fun i => cover i)

/-- The kernel's run: every weakly fair execution terminates with the result array at `coeff` of the argument arrays,
    and the arguments as they were. -/
theorem run : θ_run defs (onTc (τ := τ) (main (F := Ideal))) ⟨m, fun _ => 0, ρ⟩ fun r => ∀ c : Dev nD,
      r.2.mem ((c : Thread nD τ).loc main_v4) = coeff (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.KernelValue

end
-- ==== Proof.lean ====
/-
  Per-species linear layers selected by an atom's species: a tiled kernel with fused weights against the masked reference.

  Every atom `n` has 256 descriptors `rho (n, ·)` and a species word `sp n`; each of four species `s` has a 256-by-128 weight
  matrix `Ws (s, ·, ·)` and a bias row `bs (s, ·)`. The result is
    `coeff (n, j) = (((0 + sel 0) + sel 1) + sel 2) + sel 3`,  `sel s = if sp n = s then (∑ k, rho (n, k) · Ws (s, k, j)) + bs (s, j) else 0`
  (Proof/SpeciesLayer.lean).

  The reference runs four rounds over all atoms, each round masking the descriptors and then the biased product with
  the comparison `sp n = s` as a select, and adds the rounds from zero: round `s` at `(n, j)` is `sel s`
  (Proof/ReferenceCoeff.lean). The kernel cuts the atoms into 20 tiles of 5000; on each tile it multiplies the
  descriptors by all four weight matrices at once, laid side by side (column `128 s + j` of the fused matrix is column `j` of
  species `s`), adds the fused bias row, and adds up the four 128-column cuts, each multiplied by the comparison's bit
  as the number 1 or 0 (Proof/TileCoeff.lean, over the fused operands of Proof/FusedOperands.lean); the tiles' row ranges
  fill the result array (Proof/KernelCoeff.lean). On the extended reals `1 · x = x` and `0 · x = 0` for every `x`, so a
  mask as a factor and a mask as a select give the same `sel s`, term by term and in the same order of addition: the
  two results are equal with no use of the finiteness of the inputs. The sum over the 256 features is one and the same
  sum on both sides (a matrix product into a zero accumulator, against the host's product).

  The three programs' runs (termination, no fault, arguments unchanged) are the generated frames; the kernel's
  idealization rewrote no operation, so its statement is `True`.
-/
import proofs.«173917_j74921409511532_2_alg».proof.Defs
import proofs.«173917_j74921409511532_2_alg».proof.Proof.Gen.Kernel
import proofs.«173917_j74921409511532_2_alg».proof.Proof.Gen.Kernel.Skeleton
import proofs.«173917_j74921409511532_2_alg».proof.Proof.Gen.Kernel.Launch
import proofs.«173917_j74921409511532_2_alg».proof.Proof.Gen.Kernel.Points
import proofs.«173917_j74921409511532_2_alg».proof.Proof.Gen.Kernel.Frame
import proofs.«173917_j74921409511532_2_alg».proof.Proof.Gen.KernelIdeal
import proofs.«173917_j74921409511532_2_alg».proof.Proof.Gen.KernelIdeal.Skeleton
import proofs.«173917_j74921409511532_2_alg».proof.Proof.Gen.KernelIdeal.Launch
import proofs.«173917_j74921409511532_2_alg».proof.Proof.Gen.KernelIdeal.Points
import proofs.«173917_j74921409511532_2_alg».proof.Proof.Gen.KernelIdeal.Frame
import proofs.«173917_j74921409511532_2_alg».proof.Proof.Gen.ReferenceIdeal
import proofs.«173917_j74921409511532_2_alg».proof.Proof.Gen.Pre_finite_inputs
import proofs.«173917_j74921409511532_2_alg».proof.Proof.Gen.KernelIdeal.Value
import proofs.«173917_j74921409511532_2_alg».proof.Proof.Gen.ReferenceIdeal.Run
import proofs.«173917_j74921409511532_2_alg».proof.Proof.Gen.ReferenceIdeal.Read
import proofs.«173917_j74921409511532_2_alg».proof.Proof.SpeciesLayer
import proofs.«173917_j74921409511532_2_alg».proof.Proof.ReferenceCoeff
import proofs.«173917_j74921409511532_2_alg».proof.Proof.KernelCoeff
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the result array at `coeff` of the arguments: the
    kernel by its tiles, the reference by its four rounds. -/
theorem algebraic : Cert.algebraic_KernelIdeal_ReferenceIdeal := by
  intro m ρ m' ρ' _ hagree
  refine ⟨fun c => Cert.SpeciesLayer.coeff (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v56_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
